-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S3x128x1 : Shape := ⟨3, ![3, 128, 1]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S3x128x1 : S_.BroadcastsInDim S3x128x1 (![] : Fin 0 → Fin S3x128x1.rank)
  reducesTo_S3x128x1_S_d0_1_2 : S3x128x1.ReducesTo [0, 1, 2] S_

variable [Facts]

def fn_part1 {F : FTy → Type} [FloatOps F] (main_arg4 : FVec F S3x128x1 .f32) (main_v13 : IVec S_ 1) (main_v16 : IVec S3x128x1 1) : IVec S_ 1 :=
  let main_c_5 : IVec S_ 1 := constantI S_ 1 1#1
  let main_v17 : IVec S_ 1 := (fun x v => Host.reduce IntOp.andi x v reducesTo_S3x128x1_S_d0_1_2 h_S_) main_v16 main_c_5
  let main_v18 : IVec S_ 1 := andi main_v13 main_v17
  let main_v19 : FVec F S3x128x1 .f32 := Host.absf main_arg4
  let main_cst_6 : FVec F S_ .f32 := constant S_ .f32 0x7F800000#32
  let main_v20 : FVec F S3x128x1 .f32 := broadcastInDim S3x128x1 ![] bcast_S_S3x128x1 main_cst_6
  let main_v21 : IVec S3x128x1 1 := cmpf .olt main_v19 main_v20
  let main_c_7 : IVec S_ 1 := constantI S_ 1 1#1
  let main_v22 : IVec S_ 1 := (fun x v => Host.reduce IntOp.andi x v reducesTo_S3x128x1_S_d0_1_2 h_S_) main_v21 main_c_7
  let main_v23 : IVec S_ 1 := andi main_v18 main_v22
  main_v23

def fn {F : FTy → Type} [FloatOps F] (main_arg0 : FVec F S8192x128 .f32) (main_arg1 : FVec F S3x128x1 .f32) (main_arg2 : FVec F S3x128x1 .f32) (main_arg3 : FVec F S3x128x1 .f32) (main_arg4 : FVec F S3x128x1 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S3x128x1 .f32 := Host.absf main_arg1
  let main_cst_0 : FVec F S_ .f32 := constant S_ .f32 0x7F800000#32
  let main_v5 : FVec F S3x128x1 .f32 := broadcastInDim S3x128x1 ![] bcast_S_S3x128x1 main_cst_0
  let main_v6 : IVec S3x128x1 1 := cmpf .olt main_v4 main_v5
  let main_c_1 : IVec S_ 1 := constantI S_ 1 1#1
  let main_v7 : IVec S_ 1 := (fun x v => Host.reduce IntOp.andi x v reducesTo_S3x128x1_S_d0_1_2 h_S_) main_v6 main_c_1
  let main_v8 : IVec S_ 1 := andi main_v3 main_v7
  let main_v9 : FVec F S3x128x1 .f32 := Host.absf main_arg2
  let main_cst_2 : FVec F S_ .f32 := constant S_ .f32 0x7F800000#32
  let main_v10 : FVec F S3x128x1 .f32 := broadcastInDim S3x128x1 ![] bcast_S_S3x128x1 main_cst_2
  let main_v11 : IVec S3x128x1 1 := cmpf .olt main_v9 main_v10
  let main_c_3 : IVec S_ 1 := constantI S_ 1 1#1
  let main_v12 : IVec S_ 1 := (fun x v => Host.reduce IntOp.andi x v reducesTo_S3x128x1_S_d0_1_2 h_S_) main_v11 main_c_3
  let main_v13 : IVec S_ 1 := andi main_v8 main_v12
  let main_v14 : FVec F S3x128x1 .f32 := Host.absf main_arg3
  let main_cst_4 : FVec F S_ .f32 := constant S_ .f32 0x7F800000#32
  let main_v15 : FVec F S3x128x1 .f32 := broadcastInDim S3x128x1 ![] bcast_S_S3x128x1 main_cst_4
  let main_v16 : IVec S3x128x1 1 := cmpf .olt main_v14 main_v15
  fn_part1 (F := F) main_arg4 main_v13 main_v16
-- ==== Kernel.lean ====
abbrev S8192x128 : Shape := ⟨2, ![8192, 128]⟩
abbrev S3x128x1 : Shape := ⟨3, ![3, 128, 1]⟩
abbrev S3x128 : Shape := ⟨2, ![3, 128]⟩
abbrev S128x128 : Shape := ⟨2, ![128, 128]⟩
abbrev S1x128 : Shape := ⟨2, ![1, 128]⟩
abbrev S128 : Shape := ⟨1, ![128]⟩
abbrev S128x128x1 : Shape := ⟨3, ![128, 128, 1]⟩
abbrev S128x1x128 : Shape := ⟨3, ![128, 1, 128]⟩
abbrev S128x128x128 : Shape := ⟨3, ![128, 128, 128]⟩

abbrev nBuf : Space → Nat
  | .hbm => 10
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S3x128x1, .f32⟩
  | .hbm, ⟨2, _⟩ => ⟨S3x128x1, .f32⟩
  | .hbm, ⟨3, _⟩ => ⟨S3x128x1, .f32⟩
  | .hbm, ⟨4, _⟩ => ⟨S3x128x1, .f32⟩
  | .hbm, ⟨5, _⟩ => ⟨S3x128, .f32⟩
  | .hbm, ⟨6, _⟩ => ⟨S3x128, .f32⟩
  | .hbm, ⟨7, _⟩ => ⟨S3x128, .f32⟩
  | .hbm, ⟨8, _⟩ => ⟨S3x128, .f32⟩
  | .hbm, ⟨9, _⟩ => ⟨S8192x128, .f32⟩
  | .local _ .vmem, ⟨0, _⟩ => ⟨S128x128, .f32⟩
  | .local _ .vmem, ⟨1, _⟩ => ⟨S128x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S128x128, .f32⟩
  | .local _ .vmem, ⟨7, _⟩ => ⟨S128x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S3x128x1_S3x128 : S3x128x1.ShapeCasts S3x128
  inb_S128x128_S128x128_0_0 : ∀ a, (![0, 0] : Fin 2 → Nat) a + S128x128.size a ≤ S128x128.size a
  h_S128x128 : 0 < S128x128.numel
  inb_S3x128_S1x128_0_0 : ∀ a, (![0, 0] : Fin 2 → Nat) a + S1x128.size a ≤ S3x128.size a
  h_S1x128 : 0 < S1x128.numel
  shapeCasts_S1x128_S128 : S1x128.ShapeCasts S128
  shapeCasts_S128_S1x128 : S128.ShapeCasts S1x128
  broadcasts_S1x128_S128x128 : S1x128.Broadcasts S128x128
  shapeCasts_S128x128_S128x128x1 : S128x128.ShapeCasts S128x128x1
  shapeCasts_S128x128_S128x1x128 : S128x128.ShapeCasts S128x1x128
  broadcasts_S128x128x1_S128x128x128 : S128x128x1.Broadcasts S128x128x128
  broadcasts_S128x1x128_S128x128x128 : S128x1x128.Broadcasts S128x128x128
  reduces_S128x128x128_S128x128 : S128x128x128.Reduces [1] S128x128
  reduces_S128x128x128_S128x128_2 : S128x128x128.Reduces [2] S128x128
  inb_S3x128_S1x128_1_0 : ∀ a, (![1, 0] : Fin 2 → Nat) a + S1x128.size a ≤ S3x128.size a
  inb_S3x128_S1x128_2_0 : ∀ a, (![2, 0] : Fin 2 → Nat) a + S1x128.size a ≤ S3x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .f32 = 32 ∨ (Rect.block (s := S8192x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x128.size a
  hwx0_1 : ∀ i : grid0.Coords, EltTy.bits .f32 = 32 ∨ (Rect.block (s := S3x128) S3x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128.size a ≤ S3x128.size a
  hwx0_2 : ∀ i : grid0.Coords, EltTy.bits .f32 = 32 ∨ (Rect.block (s := S3x128) S3x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128.size a ≤ S3x128.size a
  hwx0_3 : ∀ i : grid0.Coords, EltTy.bits .f32 = 32 ∨ (Rect.block (s := S3x128) S3x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128.size a ≤ S3x128.size a
  hwx0_4 : ∀ i : grid0.Coords, EltTy.bits .f32 = 32 ∨ (Rect.block (s := S3x128) S3x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S8192x128.size a
  hwx0_5 : ∀ i : grid0.Coords, EltTy.bits .f32 = 32 ∨ (Rect.block (s := S8192x128) S128x128.size (cc0_transform_5 i) (hinb0_5 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S3x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S3x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x128 : Shape := ⟨2, ![8192, 128]⟩
abbrev S3x128x1 : Shape := ⟨3, ![3, 128, 1]⟩
abbrev S8192x128x1 : Shape := ⟨3, ![8192, 128, 1]⟩
abbrev S1x128x1 : Shape := ⟨3, ![1, 128, 1]⟩
abbrev S128x1 : Shape := ⟨2, ![128, 1]⟩
abbrev S8192x128x128 : Shape := ⟨3, ![8192, 128, 128]⟩
abbrev S_ : Shape := ⟨0, ![]⟩
abbrev S8192x1x128 : Shape := ⟨3, ![8192, 1, 128]⟩

abbrev nBuf : Space → Nat
  | .hbm => 100
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S3x128x1, .f32⟩
  | .hbm, ⟨2, _⟩ => ⟨S3x128x1, .f32⟩
  | .hbm, ⟨3, _⟩ => ⟨S3x128x1, .f32⟩
  | .hbm, ⟨4, _⟩ => ⟨S3x128x1, .f32⟩
  | .hbm, ⟨5, _⟩ => ⟨S8192x128x1, .f32⟩
  | .hbm, ⟨6, _⟩ => ⟨S1x128x1, .f32⟩
  | .hbm, ⟨7, _⟩ => ⟨S128x1, .f32⟩
  | .hbm, ⟨8, _⟩ => ⟨S1x128x1, .f32⟩
  | .hbm, ⟨9, _⟩ => ⟨S8192x128x1, .f32⟩
  | .hbm, ⟨10, _⟩ => ⟨S8192x128x1, .f32⟩
  | .hbm, ⟨11, _⟩ => ⟨S1x128x1, .f32⟩
  | .hbm, ⟨12, _⟩ => ⟨S128x1, .f32⟩
  | .hbm, ⟨13, _⟩ => ⟨S1x128x1, .f32⟩
  | .hbm, ⟨14, _⟩ => ⟨S8192x128x1, .f32⟩
  | .hbm, ⟨15, _⟩ => ⟨S8192x128x1, .f32⟩
  | .hbm, ⟨16, _⟩ => ⟨S1x128x1, .f32⟩
  | .hbm, ⟨17, _⟩ => ⟨S128x1, .f32⟩
  | .hbm, ⟨18, _⟩ => ⟨S1x128x1, .f32⟩
  | .hbm, ⟨19, _⟩ => ⟨S8192x128x1, .f32⟩
  | .hbm, ⟨20, _⟩ => ⟨S8192x128x1, .f32⟩
  | .hbm, ⟨21, _⟩ => ⟨S8192x128x128, .f32⟩
  | .hbm, ⟨22, _⟩ => ⟨S8192x128x128, .f32⟩
  | .hbm, ⟨23, _⟩ => ⟨S_, .f32⟩
  | .hbm, ⟨24, _⟩ => ⟨S8192x128, .f32⟩
  | .hbm, ⟨25, _⟩ => ⟨S8192x1x128, .f32⟩
  | .hbm, ⟨26, _⟩ => ⟨S8192x128x128, .f32⟩
  | .hbm, ⟨27, _⟩ => ⟨S8192x128x128, .f32⟩
  | .hbm, ⟨28, _⟩ => ⟨S8192x128x128, .f32⟩
  | .hbm, ⟨29, _⟩ => ⟨S8192x128x128, .f32⟩
  | .hbm, ⟨30, _⟩ => ⟨S8192x128x1, .f32⟩
  | .hbm, ⟨31, _⟩ => ⟨S1x128x1, .f32⟩
  | .hbm, ⟨32, _⟩ => ⟨S128x1, .f32⟩
  | .hbm, ⟨33, _⟩ => ⟨S1x128x1, .f32⟩
  | .hbm, ⟨34, _⟩ => ⟨S8192x128x1, .f32⟩
  | .hbm, ⟨35, _⟩ => ⟨S8192x128x1, .f32⟩
  | .hbm, ⟨36, _⟩ => ⟨S8192x128x1, .f32⟩
  | .hbm, ⟨37, _⟩ => ⟨S1x128x1, .f32⟩
  | .hbm, ⟨38, _⟩ => ⟨S128x1, .f32⟩
  | .hbm, ⟨39, _⟩ => ⟨S1x128x1, .f32⟩
  | .hbm, ⟨40, _⟩ => ⟨S8192x128x1, .f32⟩
  | .hbm, ⟨41, _⟩ => ⟨S8192x128x1, .f32⟩
  | .hbm, ⟨42, _⟩ => ⟨S1x128x1, .f32⟩
  | .hbm, ⟨43, _⟩ => ⟨S128x1, .f32⟩
  | .hbm, ⟨44, _⟩ => ⟨S1x128x1, .f32⟩
  | .hbm, ⟨45, _⟩ => ⟨S8192x128x1, .f32⟩
  | .hbm, ⟨46, _⟩ => ⟨S8192x128x1, .f32⟩
  | .hbm, ⟨47, _⟩ => ⟨S1x128x1, .f32⟩
  | .hbm, ⟨48, _⟩ => ⟨S128x1, .f32⟩
  | .hbm, ⟨49, _⟩ => ⟨S1x128x1, .f32⟩
  | .hbm, ⟨50, _⟩ => ⟨S8192x128x1, .f32⟩
  | .hbm, ⟨51, _⟩ => ⟨S8192x128x1, .f32⟩
  | .hbm, ⟨52, _⟩ => ⟨S8192x128x128, .f32⟩
  | .hbm, ⟨53, _⟩ => ⟨S8192x128x128, .f32⟩
  | .hbm, ⟨54, _⟩ => ⟨S_, .f32⟩
  | .hbm, ⟨55, _⟩ => ⟨S8192x128, .f32⟩
  | .hbm, ⟨56, _⟩ => ⟨S8192x1x128, .f32⟩
  | .hbm, ⟨57, _⟩ => ⟨S8192x128x128, .f32⟩
  | .hbm, ⟨58, _⟩ => ⟨S8192x128x128, .f32⟩
  | .hbm, ⟨59, _⟩ => ⟨S8192x128x128, .f32⟩
  | .hbm, ⟨60, _⟩ => ⟨S8192x128x128, .f32⟩
  | .hbm, ⟨61, _⟩ => ⟨S8192x128x1, .f32⟩
  | .hbm, ⟨62, _⟩ => ⟨S1x128x1, .f32⟩
  | .hbm, ⟨63, _⟩ => ⟨S128x1, .f32⟩
  | .hbm, ⟨64, _⟩ => ⟨S1x128x1, .f32⟩
  | .hbm, ⟨65, _⟩ => ⟨S8192x128x1, .f32⟩
  | .hbm, ⟨66, _⟩ => ⟨S8192x128x1, .f32⟩
  | .hbm, ⟨67, _⟩ => ⟨S8192x128x1, .f32⟩
  | .hbm, ⟨68, _⟩ => ⟨S1x128x1, .f32⟩
  | .hbm, ⟨69, _⟩ => ⟨S128x1, .f32⟩
  | .hbm, ⟨70, _⟩ => ⟨S1x128x1, .f32⟩
  | .hbm, ⟨71, _⟩ => ⟨S8192x128x1, .f32⟩
  | .hbm, ⟨72, _⟩ => ⟨S8192x128x1, .f32⟩
  | .hbm, ⟨73, _⟩ => ⟨S1x128x1, .f32⟩
  | .hbm, ⟨74, _⟩ => ⟨S128x1, .f32⟩
  | .hbm, ⟨75, _⟩ => ⟨S1x128x1, .f32⟩
  | .hbm, ⟨76, _⟩ => ⟨S8192x128x1, .f32⟩
  | .hbm, ⟨77, _⟩ => ⟨S8192x128x1, .f32⟩
  | .hbm, ⟨78, _⟩ => ⟨S1x128x1, .f32⟩
  | .hbm, ⟨79, _⟩ => ⟨S128x1, .f32⟩
  | .hbm, ⟨80, _⟩ => ⟨S1x128x1, .f32⟩
  | .hbm, ⟨81, _⟩ => ⟨S8192x128x1, .f32⟩
  | .hbm, ⟨82, _⟩ => ⟨S8192x128x1, .f32⟩
  | .hbm, ⟨83, _⟩ => ⟨S8192x128x128, .f32⟩
  | .hbm, ⟨84, _⟩ => ⟨S8192x128x128, .f32⟩
  | .hbm, ⟨85, _⟩ => ⟨S_, .f32⟩
  | .hbm, ⟨86, _⟩ => ⟨S8192x128, .f32⟩
  | .hbm, ⟨87, _⟩ => ⟨S8192x1x128, .f32⟩
  | .hbm, ⟨88, _⟩ => ⟨S8192x128x128, .f32⟩
  | .hbm, ⟨89, _⟩ => ⟨S8192x128x128, .f32⟩
  | .hbm, ⟨90, _⟩ => ⟨S8192x128x128, .f32⟩
  | .hbm, ⟨91, _⟩ => ⟨S8192x128x128, .f32⟩
  | .hbm, ⟨92, _⟩ => ⟨S8192x128x1, .f32⟩
  | .hbm, ⟨93, _⟩ => ⟨S1x128x1, .f32⟩
  | .hbm, ⟨94, _⟩ => ⟨S128x1, .f32⟩
  | .hbm, ⟨95, _⟩ => ⟨S1x128x1, .f32⟩
  | .hbm, ⟨96, _⟩ => ⟨S8192x128x1, .f32⟩
  | .hbm, ⟨97, _⟩ => ⟨S8192x128x1, .f32⟩
  | .hbm, ⟨98, _⟩ => ⟨S8192x128x1, .f32⟩
  | .hbm, ⟨99, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_cst_0 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_cst_1 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩

abbrev nD : Nat := 1
abbrev τ : Topo := Topo.v7x

variable {F : FTy → Type} [FloatOps F]

class Facts₀ : Prop where
  bcast_S8192x128_S8192x128x1_0_1 : S8192x128.BroadcastsInDim S8192x128x1 (![0, 1] : Fin 2 → Fin S8192x128x1.rank)
  slices_S3x128x1_S1x128x1_0_0_0 : S3x128x1.Slices ![0, 0, 0] S1x128x1
  shapeCasts_S1x128x1_S128x1 : S1x128x1.ShapeCasts S128x1
  bcast_S128x1_S1x128x1_1_2 : S128x1.BroadcastsInDim S1x128x1 (![1, 2] : Fin 2 → Fin S1x128x1.rank)
  bcast_S1x128x1_S8192x128x1_0_1_2 : S1x128x1.BroadcastsInDim S8192x128x1 (![0, 1, 2] : Fin 3 → Fin S8192x128x1.rank)
  reducesTo_S8192x128x128_S8192x128_d1 : S8192x128x128.ReducesTo [1] S8192x128
  h_S_ : 0 < S_.numel
  bcast_S8192x128_S8192x1x128_0_2 : S8192x128.BroadcastsInDim S8192x1x128 (![0, 2] : Fin 2 → Fin S8192x1x128.rank)
  bcast_S8192x1x128_S8192x128x128_0_1_2 : S8192x1x128.BroadcastsInDim S8192x128x128 (![0, 1, 2] : Fin 3 → Fin S8192x128x128.rank)
  bcast_S8192x128x1_S8192x128x128_0_1_2 : S8192x128x1.BroadcastsInDim S8192x128x128 (![0, 1, 2] : Fin 3 → Fin S8192x128x128.rank)
  slices_S3x128x1_S1x128x1_1_0_0 : S3x128x1.Slices ![1, 0, 0] S1x128x1
  slices_S3x128x1_S1x128x1_2_0_0 : S3x128x1.Slices ![2, 0, 0] S1x128x1
  shapeCasts_S8192x128x1_S8192x128 : S8192x128x1.ShapeCasts S8192x128
  dot_S8192x128x1_S8192x128x1_S8192x128x128_2_2_1_1_0_0_wf : DotDims.WF S8192x128x1 S8192x128x1 S8192x128x128 [2] [2] [1] [1] [0] [0]
  dot_S8192x128x128_S8192x128x1_S8192x128x1_2_1_1_2_0_0_wf : DotDims.WF S8192x128x128 S8192x128x1 S8192x128x1 [2] [1] [1] [2] [0] [0]

variable [Facts₀]

def dot_S8192x128x1_S8192x128x1_S8192x128x128_2_2_1_1_0_0 : DotDims S8192x128x1 S8192x128x1 S8192x128x128 where
  lhsContracting := [2]
  rhsContracting := [2]
  lhsNonContracting := [1]
  rhsNonContracting := [1]
  lhsBatch := [0]
  rhsBatch := [0]
  wf := dot_S8192x128x1_S8192x128x1_S8192x128x128_2_2_1_1_0_0_wf
def dot_S8192x128x128_S8192x128x1_S8192x128x1_2_1_1_2_0_0 : DotDims S8192x128x128 S8192x128x1 S8192x128x1 where
  lhsContracting := [2]
  rhsContracting := [1]
  lhsNonContracting := [1]
  rhsNonContracting := [2]
  lhsBatch := [0]
  rhsBatch := [0]
  wf := dot_S8192x128x128_S8192x128x1_S8192x128x1_2_1_1_2_0_0_wf

class Facts : Prop extends Facts₀ where

variable [Facts]
-- ==== Proof.Spec.lean ====
/-
  The function both programs compute, one row at a time.

  A row `x0 : Fin 128 → EReal` of the data matrix is carried through three layers.  With `xl` the row
  entering a layer and `wq wk wv b` that layer's parameter columns, the layer forms the 128 × 128 table
  `s d e = (x0 d · wk d) · (xl e · wq e)`, normalises `exp s` down each column `e` (the sum runs over the
  first index `d`), weights entry `(d, e)` by `x0 d · wv d`, and contracts the second index against `xl`:

      layer d = (∑ e, exp (s d e) / (∑ d', exp (s d' e)) · (x0 d · wv d) · xl e) + b d + xl d.

  Every operation is the exact one on the extended reals, in the order written, so no finiteness of the
  inputs is needed anywhere: the two programs apply the same operations to the same operands, and differ
  only in how sums are spelt (a contraction over an axis of length one; a sum with an initial value `0`).
-/
import Idealize.ShloMosaic.PureOps.Ideal
import Idealize.ShloMosaic.Lib.ValueIdx

noncomputable section

namespace Cert.RowLayers

open Idealize.ShloMosaic Idealize.ShloMosaic.ValueIdx

/-- Row `r` of the [8192, 128] data matrix. -/
def xrow (x : (⟨2, ![8192, 128]⟩ : Shape).Idx → EReal) (r : Fin 8192) : Fin 128 → EReal :=
  fun d => x (ix2 r d)

/-- Layer `l`'s column of a [3, 128, 1] parameter array. -/
def pcol (w : (⟨3, ![3, 128, 1]⟩ : Shape).Idx → EReal) (l : Fin 3) : Fin 128 → EReal :=
  fun d => w (ix3 l d (0 : Fin 1))

/-- One layer on one row: `x0` the row as given, `xl` the row entering the layer. -/
def layer (wq wk wv b x0 xl : Fin 128 → EReal) : Fin 128 → EReal := fun d =>
  (∑ e : Fin 128,
      Ideal.div (Ideal.exp (x0 d * wk d * (xl e * wq e)))
          (∑ d' : Fin 128, Ideal.exp (x0 d' * wk d' * (xl e * wq e)))
        * (x0 d * wv d) * xl e)
    + b d + xl d

/-- The three layers on one row, the first entered by the row itself. -/
def rowOut (wq wk wv b : (⟨3, ![3, 128, 1]⟩ : Shape).Idx → EReal) (x0 : Fin 128 → EReal) : Fin 128 → EReal :=
  layer (pcol wq 2) (pcol wk 2) (pcol wv 2) (pcol b 2) x0
    (layer (pcol wq 1) (pcol wk 1) (pcol wv 1) (pcol b 1) x0
      (layer (pcol wq 0) (pcol wk 0) (pcol wv 0) (pcol b 0) x0 x0))

/-- The whole result: entry `(r, d)` is entry `d` of the three layers applied to row `r`. -/
def G (x : (⟨2, ![8192, 128]⟩ : Shape).Idx → EReal) (wq wk wv b : (⟨3, ![3, 128, 1]⟩ : Shape).Idx → EReal) :
    (⟨2, ![8192, 128]⟩ : Shape).Idx → EReal :=
  fun i => rowOut wq wk wv b (xrow x (i 0)) (i 1)

theorem G_apply (x : (⟨2, ![8192, 128]⟩ : Shape).Idx → EReal) (wq wk wv b : (⟨3, ![3, 128, 1]⟩ : Shape).Idx → EReal)
    (r : Fin 8192) (d : Fin 128) : G x wq wk wv b (ix2 r d) = rowOut wq wk wv b (xrow x r) d := rfl

end Cert.RowLayers

end
-- ==== Proof.LibCubeForms.lean ====
/-
  Rank-three forms read at an index, for any extents.

  A matrix `[a, b]` becomes a cube in two ways: with a trailing unit axis, `[a, b, 1]`, then repeated along
  the last axis, so that entry `(p, d, e)` is the matrix at `(p, d)`; or with a middle unit axis, `[a, 1, c]`,
  then repeated along the middle axis, so that entry `(p, d, e)` is the matrix at `(p, e)`.  Together the two
  give an outer product of rows.  A sum of a cube along its middle axis read at `(p, e)`, and along its last
  axis read at `(p, d)`, is the `Fin`-indexed sum over that coordinate.
-/
import Idealize.ShloMosaic.Lib.ValueIdx
import Idealize.ShloMosaic.Lib.Pipeline.Value
import Idealize.ShloMosaic.PureOps.Ideal.Laws

namespace Cert.CubeForms

open Idealize.ShloMosaic Idealize.ShloMosaic.ValueIdx

variable {α : Type}

/-- `[a, b]` cast to `[a, b, 1]` reads, at `(p, d, u)`, the matrix at `(p, d)`. -/
theorem shapeCast_ab_ab1_apply {a b : ℕ} (x : (⟨2, ![a, b]⟩ : Shape).Idx → α)
    (h : (⟨2, ![a, b]⟩ : Shape).ShapeCasts ⟨3, ![a, b, 1]⟩) (p : Fin a) (d : Fin b) (u : Fin 1) :
    shapeCast ⟨3, ![a, b, 1]⟩ x h (ix3 p d u) = x (ix2 p d) :=
  shapeCast_apply x h _ _ (by
    have hu : u.val = 0 := by omega
    rw [Shape.rowMajor_val_two, Shape.rowMajor_val_three]
    show p.val * b + d.val = (p.val * b + d.val) * 1 + u.val
    rw [hu, Nat.mul_one, Nat.add_zero])

/-- `[a, c]` cast to `[a, 1, c]` reads, at `(p, u, e)`, the matrix at `(p, e)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    have hu : u.val = 0 := by omega
    rw [Shape.rowMajor_val_two, Shape.rowMajor_val_three]
    show p.val * c + e.val = (p.val * 1 + u.val) * c + e.val
    rw [hu, Nat.mul_one, Nat.add_zero])

/-- `[a, b, 1]` repeated along the last axis to `[a, b, c]` reads, at `(p, d, e)`, the operand at `(p, d, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (d : Fin b) (e : Fin c) :
    broadcastTo ⟨3, ![a, b, c]⟩ v h (ix3 p d e) = v (ix3 p d (0 : Fin 1)) := by
  refine broadcastTo_apply v h (ix3 p d e) (ix3 p d (0 : Fin 1)) fun ax => ?_
  match ax with
  | ⟨0, _⟩ =>
    show p.val = if a = 1 then 0 else p.val
    split
    · have := p.isLt; omega
    · rfl
  | ⟨1, _⟩ =>
    show d.val = if b = 1 then 0 else d.val
    split
    · have := d.isLt; omega
    · rfl
  | ⟨2, _⟩ => rfl

/-- `[a, 1, c]` repeated along the middle axis to `[a, b, c]` reads, at `(p, d, e)`, the operand at `(p, 0, e)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (d : Fin b) (e : Fin c) :
    broadcastTo ⟨3, ![a, b, c]⟩ v h (ix3 p d e) = v (ix3 p (0 : Fin 1) e) := by
  refine broadcastTo_apply v h (ix3 p d e) (ix3 p (0 : Fin 1) e) fun ax => ?_
  match ax with
  | ⟨0, _⟩ =>
    show p.val = if a = 1 then 0 else p.val
    split
    · have := p.isLt; omega
    · rfl
  | ⟨1, _⟩ => rfl
  | ⟨2, _⟩ =>
    show e.val = if c = 1 then 0 else e.val
    split
    · have := e.isLt; omega
    · rfl

/-- A float sum of a cube along its MIDDLE axis, at the ideal values, read at `(p, e)`: the sum over `d` of the cube
    at `(p, d, e)`. -/
theorem sum_middle_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (e : Fin c) :
    multiReduction .add [1] ⟨2, ![a, c]⟩ src acc h hφ hacc (ix2 p e) = ∑ d : Fin b, src (ix3 p d e) := by
  rw [Ideal.multiReduction_add_single]
  refine Finset.sum_congr rfl fun d _ => congrArg src (funext fun ax => Fin.ext ?_)
  match ax with
  | ⟨0, _⟩ => rfl
  | ⟨1, _⟩ => rfl
  | ⟨2, _⟩ => rfl

/-- A float sum of a cube along its LAST axis, at the ideal values, read at `(p, d)`: the sum over `e` of the cube at
    `(p, d, e)`. -/
theorem sum_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (d : Fin b) :
    multiReduction .add [2] ⟨2, ![a, b]⟩ src acc h hφ hacc (ix2 p d) = ∑ e : Fin c, src (ix3 p d e) := by
  rw [Ideal.multiReduction_add_single]
  refine Finset.sum_congr rfl fun e _ => congrArg src (funext fun ax => Fin.ext ?_)
  match ax with
  | ⟨0, _⟩ => rfl
  | ⟨1, _⟩ => rfl
  | ⟨2, _⟩ => rfl

end Cert.CubeForms
-- ==== Proof.KernelRow.lean ====
/-
  The kernel's block, row by row.

  The body's three stored-value terms are the same vector expression applied three times: with `a = x0 · wk`,
  `q = xl · wq` and `v = x0 · wv` (each parameter row repeated down the 128 rows of the block) it forms the cube
  `exp (a(p,d) · q(p,e))`, divides by the cube's sums along the middle axis, multiplies by `v(p,d)` and by
  `xl(p,e)`, sums along the last axis, and adds the bias row and `xl`.  `layerV` names that expression once; read
  at `(p, d)` it is the row function `RowLayers.layer` of row `p` of the block at `d`, because every cube entry
  `(p, d, e)` only reads row `p`.
-/
import proofs.«173370_j18416819765988_1_alg».proof.Proof.Gen.KernelIdeal.Frame
import proofs.«173370_j18416819765988_1_alg».proof.Proof.Spec
import proofs.«173370_j18416819765988_1_alg».proof.Proof.LibCubeForms
import Idealize.ShloMosaic.Lib.ValueLayout
import Idealize.ShloMosaic.PureOps.Ideal.Laws

noncomputable section

namespace Cert.KernelIdeal.RowValue

open Cert.KernelIdeal Cert.KernelIdeal.Gen Idealize.ShloMosaic Idealize.ShloMosaic.ValueIdx Cert.RowLayers Cert.CubeForms

variable {F : FTy → Type} [FloatOps F]

/-! ## One layer as a vector expression -/

/-- A matrix as a cube constant along the last axis: entry `(p, d, e)` is the matrix at `(p, d)`. -/
def colCube (A : FVec F S128x128 .f32) : FVec F S128x128x128 .f32 :=
  broadcastTo S128x128x128 (shapeCast S128x128x1 A shapeCasts_S128x128_S128x128x1) broadcasts_S128x128x1_S128x128x128

/-- A matrix as a cube constant along the middle axis: entry `(p, d, e)` is the matrix at `(p, e)`. -/
def rowCube (Q : FVec F S128x128 .f32) : FVec F S128x128x128 .f32 :=
  broadcastTo S128x128x128 (shapeCast S128x1x128 Q shapeCasts_S128x128_S128x1x128) broadcasts_S128x1x128_S128x128x128

/-- One parameter row repeated down the block's rows. -/
def rowMat (w : FVec F S1x128 .f32) : FVec F S128x128 .f32 :=
  broadcastTo S128x128 w broadcasts_S1x128_S128x128

/-- The cube summed along its middle axis. -/
def sumMid (C : FVec F S128x128x128 .f32) : FVec F S128x128 .f32 :=
  multiReduction .add [1] S128x128 C 0x00000000#32 reduces_S128x128x128_S128x128 (.inl rfl) rfl

/-- The cube summed along its last axis. -/
def sumLast (C : FVec F S128x128x128 .f32) : FVec F S128x128 .f32 :=
  multiReduction .add [2] S128x128 C 0x00000000#32 reduces_S128x128x128_S128x128_2 (.inl rfl) rfl

/-- `exp (a(p,d) · q(p,e))`. -/
def expTable (a q : FVec F S128x128 .f32) : FVec F S128x128x128 .f32 :=
  exp (mulf (colCube a) (rowCube q))

/-- One layer on a block: `x0` the block as loaded, `xl` the block entering the layer, and the layer's four
    parameter rows. -/
def layerV (x0 xl : FVec F S128x128 .f32) (wq wk wv b : FVec F S1x128 .f32) : FVec F S128x128 .f32 :=
  addf (addf (sumLast (mulf (mulf
      (divf (expTable (mulf x0 (rowMat wk)) (mulf xl (rowMat wq)))
        (rowCube (sumMid (expTable (mulf x0 (rowMat wk)) (mulf xl (rowMat wq))))))
      (colCube (mulf x0 (rowMat wv)))) (rowCube xl))) (rowMat b)) xl

/-- A row cast to a vector and back is the row. -/
theorem castBack (w : FVec F S1x128 .f32) :
    shapeCast S1x128 (shapeCast S128 w shapeCasts_S1x128_S128) shapeCasts_S128_S1x128 = w :=
  shapeCast_shapeCast w _ _

/-- The first layer's stored value is `layerV` entered by the block itself. -/
theorem pay_first (v0 : FVec F S128x128 .f32) (v1 v3 v5 v7 : FVec F S1x128 .f32) :
    k0_pay2 v0 v1 v3 v5 v7 = layerV v0 v0 v1 v3 v5 v7 := by
  have e : k0_pay2 v0 v1 v3 v5 v7 = layerV v0 v0
      (shapeCast S1x128 (shapeCast S128 v1 shapeCasts_S1x128_S128) shapeCasts_S128_S1x128)
      (shapeCast S1x128 (shapeCast S128 v3 shapeCasts_S1x128_S128) shapeCasts_S128_S1x128)
      (shapeCast S1x128 (shapeCast S128 v5 shapeCasts_S1x128_S128) shapeCasts_S128_S1x128)
      (shapeCast S1x128 (shapeCast S128 v7 shapeCasts_S1x128_S128) shapeCasts_S128_S1x128) := rfl
  rw [e, castBack, castBack, castBack, castBack]

/-- The second layer's stored value. -/
theorem pay_second (v0 v38 : FVec F S128x128 .f32) (v39 v41 v43 v45 : FVec F S1x128 .f32) :
    k0_pay5 v0 v38 (k0_pay3 v39) (k0_pay4 v41) v43 v45 = layerV v0 v38 v39 v41 v43 v45 := by
  have e : k0_pay5 v0 v38 (k0_pay3 v39) (k0_pay4 v41) v43 v45 = layerV v0 v38
      (shapeCast S1x128 (shapeCast S128 v39 shapeCasts_S1x128_S128) shapeCasts_S128_S1x128)
      (shapeCast S1x128 (shapeCast S128 v41 shapeCasts_S1x128_S128) shapeCasts_S128_S1x128)
      (shapeCast S1x128 (shapeCast S128 v43 shapeCasts_S1x128_S128) shapeCasts_S128_S1x128)
      (shapeCast S1x128 (shapeCast S128 v45 shapeCasts_S1x128_S128) shapeCasts_S128_S1x128) := rfl
  rw [e, castBack, castBack, castBack, castBack]

/-- The third layer's stored value. -/
theorem pay_third (v0 v76 : FVec F S128x128 .f32) (v77 v79 v81 v83 : FVec F S1x128 .f32) :
    k0_pay1 v0 v76 (k0_pay6 v81) (k0_pay7 v83) (k0_pay8 v0 v79) (k0_pay9 v77) = layerV v0 v76 v77 v79 v81 v83 := by
  have e : k0_pay1 v0 v76 (k0_pay6 v81) (k0_pay7 v83) (k0_pay8 v0 v79) (k0_pay9 v77) = layerV v0 v76
      (shapeCast S1x128 (shapeCast S128 v77 shapeCasts_S1x128_S128) shapeCasts_S128_S1x128)
      (shapeCast S1x128 (shapeCast S128 v79 shapeCasts_S1x128_S128) shapeCasts_S128_S1x128)
      (shapeCast S1x128 (shapeCast S128 v81 shapeCasts_S1x128_S128) shapeCasts_S128_S1x128)
      (shapeCast S1x128 (shapeCast S128 v83 shapeCasts_S1x128_S128) shapeCasts_S128_S1x128) := rfl
  rw [e, castBack, castBack, castBack, castBack]

/-! ## The layer read at an index, at the ideal values -/

theorem colCube_apply (A : FVec Ideal S128x128 .f32) (p d e : Fin 128) : colCube A (ix3 p d e) = A (ix2 p d) := by
  unfold colCube
  rw [broadcastTo_ab1_abc_apply, shapeCast_ab_ab1_apply]

theorem rowCube_apply (Q : FVec Ideal S128x128 .f32) (p d e : Fin 128) : rowCube Q (ix3 p d e) = Q (ix2 p e) := by
  unfold rowCube
  rw [broadcastTo_a1c_abc_apply, shapeCast_ac_a1c_apply]

theorem rowMat_apply (w : FVec Ideal S1x128 .f32) (p q : Fin 128) : rowMat w (ix2 p q) = w (ix2 (0 : Fin 1) q) := by
  unfold rowMat
  rw [broadcastTo_1b_ab_apply]

theorem sumMid_apply (C : FVec Ideal S128x128x128 .f32) (p e : Fin 128) :
    sumMid C (ix2 p e) = ∑ d : Fin 128, C (ix3 p d e) :=
  sum_middle_apply C _ _ _ _ p e

theorem sumLast_apply (C : FVec Ideal S128x128x128 .f32) (p d : Fin 128) :
    sumLast C (ix2 p d) = ∑ e : Fin 128, C (ix3 p d e) :=
  sum_last_apply C _ _ _ _ p d

theorem expTable_apply (a q : FVec Ideal S128x128 .f32) (p d e : Fin 128) :
    expTable a q (ix3 p d e) = Ideal.exp (a (ix2 p d) * q (ix2 p e)) := by
  show Ideal.exp (colCube (F := Ideal) a (ix3 p d e) * rowCube (F := Ideal) q (ix3 p d e)) = _
  rw [colCube_apply, rowCube_apply]

/-- Row `p` of a block. -/
def brow (x : FVec Ideal S128x128 .f32) (p : Fin 128) : Fin 128 → EReal := fun q => x (ix2 p q)

/-- The one row of a parameter row. -/
def prow (w : FVec Ideal S1x128 .f32) : Fin 128 → EReal := fun q => w (ix2 (0 : Fin 1) q)

/-- `layerV` at `(p, d)` is the row function of row `p` at `d`. -/
theorem layerV_apply (x0 xl : FVec Ideal S128x128 .f32) (wq wk wv b : FVec Ideal S1x128 .f32) (p d : Fin 128) :
    layerV x0 xl wq wk wv b (ix2 p d) = layer (prow wq) (prow wk) (prow wv) (prow b) (brow x0 p) (brow xl p) d := by
  show sumLast (F := Ideal) _ (ix2 p d) + rowMat (F := Ideal) b (ix2 p d) + xl (ix2 p d) = _
  rw [sumLast_apply, rowMat_apply]
  unfold layer
  refine congrArg (fun s => s + b (ix2 (0 : Fin 1) d) + xl (ix2 p d)) (Finset.sum_congr rfl fun e _ => ?_)
  show Ideal.div (expTable (F := Ideal) _ _ (ix3 p d e)) (rowCube (F := Ideal) (sumMid (F := Ideal) _) (ix3 p d e)) * colCube (F := Ideal) _ (ix3 p d e) * rowCube (F := Ideal) xl (ix3 p d e) = _
  rw [expTable_apply, rowCube_apply, sumMid_apply, colCube_apply, rowCube_apply]
  simp only [expTable_apply]
  show Ideal.div (Ideal.exp (x0 (ix2 p d) * rowMat (F := Ideal) wk (ix2 p d) * (xl (ix2 p e) * rowMat (F := Ideal) wq (ix2 p e))))
      (∑ d' : Fin 128, Ideal.exp (x0 (ix2 p d') * rowMat (F := Ideal) wk (ix2 p d') * (xl (ix2 p e) * rowMat (F := Ideal) wq (ix2 p e))))
      * (x0 (ix2 p d) * rowMat (F := Ideal) wv (ix2 p d)) * xl (ix2 p e) = _
  simp only [rowMat_apply]
  rfl

/-! ## The block the body leaves -/

theorem hz : (![0, 0] : Fin 2 → Nat) = fun _ => 0 := funext fun a => by fin_cases a <;> rfl

/-- The three layers on a block, each with its row of every parameter array. -/
def blockOut (x0 : FVec F S128x128 .f32) (x1 x2 x3 x4 : Vec F S3x128 .f32) : FVec F S128x128 .f32 :=
  layerV x0
    (layerV x0
      (layerV x0 x0 (View.ld x1 r0_1) (View.ld x2 r0_1) (View.ld x3 r0_1) (View.ld x4 r0_1))
      (View.ld x1 r0_2) (View.ld x2 r0_2) (View.ld x3 r0_2) (View.ld x4 r0_2))
    (View.ld x1 r0_3) (View.ld x2 r0_3) (View.ld x3 r0_3) (View.ld x4 r0_3)

/-- What the body leaves in the output block is `blockOut` of the input blocks. -/
theorem out_eq (x0 : Vec F S128x128 .f32) (x1 x2 x3 x4 : Vec F S3x128 .f32) :
    out0_5 x0 x1 x2 x3 x4 = blockOut x0 x1 x2 x3 x4 := by
  unfold out0_5
  rw [View.canon_unit_zero hz]
  simp only [View.ld_unit_zero (S := S128x128) hz]
  rw [pay_first, pay_second, pay_third]
  rfl

/-- Row `l` of a [3, 128] parameter block, as the body loads it. -/
theorem ld_row0 (x : Vec Ideal S3x128 .f32) : prow (View.ld x r0_1) = fun q => x (ix2 (0 : Fin 3) q) :=
  funext fun q => congrArg x (funext fun a => Fin.ext (by
    match a with
    | ⟨0, _⟩ => rfl
    | ⟨1, _⟩ => show 0 + 1 * q.val = q.val; omega))

theorem ld_row1 (x : Vec Ideal S3x128 .f32) : prow (View.ld x r0_2) = fun q => x (ix2 (1 : Fin 3) q) :=
  funext fun q => congrArg x (funext fun a => Fin.ext (by
    match a with
    | ⟨0, _⟩ => rfl
    | ⟨1, _⟩ => show 0 + 1 * q.val = q.val; omega))

theorem ld_row2 (x : Vec Ideal S3x128 .f32) : prow (View.ld x r0_3) = fun q => x (ix2 (2 : Fin 3) q) :=
  funext fun q => congrArg x (funext fun a => Fin.ext (by
    match a with
    | ⟨0, _⟩ => rfl
    | ⟨1, _⟩ => show 0 + 1 * q.val = q.val; omega))

/-- The output block at `(p, d)`: the three layers on row `p` of the data block, with the parameter blocks' rows. -/
theorem blockOut_apply (x0 : FVec Ideal S128x128 .f32) (x1 x2 x3 x4 : Vec Ideal S3x128 .f32) (p d : Fin 128) :
    blockOut x0 x1 x2 x3 x4 (ix2 p d)
      = layer (fun q => x1 (ix2 (2 : Fin 3) q)) (fun q => x2 (ix2 (2 : Fin 3) q)) (fun q => x3 (ix2 (2 : Fin 3) q)) (fun q => x4 (ix2 (2 : Fin 3) q)) (brow x0 p)
          (layer (fun q => x1 (ix2 (1 : Fin 3) q)) (fun q => x2 (ix2 (1 : Fin 3) q)) (fun q => x3 (ix2 (1 : Fin 3) q)) (fun q => x4 (ix2 (1 : Fin 3) q)) (brow x0 p)
            (layer (fun q => x1 (ix2 (0 : Fin 3) q)) (fun q => x2 (ix2 (0 : Fin 3) q)) (fun q => x3 (ix2 (0 : Fin 3) q)) (fun q => x4 (ix2 (0 : Fin 3) q)) (brow x0 p) (brow x0 p))) d := by
  unfold blockOut
  rw [layerV_apply]
  have e2 : brow (layerV x0 (layerV x0 x0 (View.ld x1 r0_1) (View.ld x2 r0_1) (View.ld x3 r0_1) (View.ld x4 r0_1))
      (View.ld x1 r0_2) (View.ld x2 r0_2) (View.ld x3 r0_2) (View.ld x4 r0_2)) p
      = layer (prow (View.ld x1 r0_2)) (prow (View.ld x2 r0_2)) (prow (View.ld x3 r0_2)) (prow (View.ld x4 r0_2)) (brow x0 p)
          (brow (layerV x0 x0 (View.ld x1 r0_1) (View.ld x2 r0_1) (View.ld x3 r0_1) (View.ld x4 r0_1)) p) :=
    funext fun q => layerV_apply _ _ _ _ _ _ p q
  have e1 : brow (layerV x0 x0 (View.ld x1 r0_1) (View.ld x2 r0_1) (View.ld x3 r0_1) (View.ld x4 r0_1)) p
      = layer (prow (View.ld x1 r0_1)) (prow (View.ld x2 r0_1)) (prow (View.ld x3 r0_1)) (prow (View.ld x4 r0_1)) (brow x0 p) (brow x0 p) :=
    funext fun q => layerV_apply _ _ _ _ _ _ p q
  rw [e2, e1]
  simp only [ld_row0, ld_row1, ld_row2]

end Cert.KernelIdeal.RowValue

end
-- ==== Proof.KernelArray.lean ====
/-
  From blocks to the whole array.

  The grid has 64 points; point `t` stages rows `128 t … 128 t + 127` of the data matrix and writes back the same
  rows of the result, while each parameter window stages its whole [3, 128] array at every point (that array is the
  [3, 128, 1] argument reshaped before the region, so its entry `(l, q)` is the argument's `(l, q, 0)`).  Since
  entry `(p, d)` of the block the body leaves depends only on row `p` of the data block, point `t` writes back
  exactly block `t` of the row-wise function `G` of the argument arrays; the 64 blocks tile the 8192 rows (row `r`
  lies in block `r / 128`), so the result array ends holding `G`.
-/
import proofs.«173370_j18416819765988_1_alg».proof.Proof.Gen.KernelIdeal.Value
import proofs.«173370_j18416819765988_1_alg».proof.Proof.KernelRow
import Idealize.ShloMosaic.Lib.Pipeline.Value
import Idealize.ShloMosaic.Lib.StableHlo.Run

noncomputable section

namespace Cert.KernelIdeal.ArrayValue

open Cert.KernelIdeal Cert.KernelIdeal.Gen Cert.KernelIdeal.RowValue Idealize.ShloMosaic Idealize.ShloMosaic.TcCoe Idealize.SL.Sem
open Idealize.ShloMosaic.ValueIdx Cert.RowLayers
open Idealize.ShloMosaic.Pipeline (Dat)

variable (m : (ℓ : Loc nD τ sig) → Buf (Elt Ideal) ℓ) (ρ : Dev nD → PrngReg)

/-- The index maps over the grid: the data and result windows move one block of rows per point, the parameter
    windows stay on their one block. -/
theorem idx_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem hN : cfg0.N = 64 := N_0

/-- A [3, 128, 1] array reshaped to [3, 128] reads, at `(l, q)`, the array at `(l, q, 0)`. -/
theorem cast_col (w : S3x128x1.Idx → EReal) (l : Fin 3) (q : Fin 128) :
    shapeCast S3x128 w shapeCasts_S3x128x1_S3x128 (ix2 l q) = w (ix3 l q (0 : Fin 1)) :=
  shapeCast_apply w _ (ix2 l q) (ix3 l q (0 : Fin 1)) (by
    rw [Shape.rowMajor_val_three, Shape.rowMajor_val_two]
    show (l.val * 128 + q.val) * 1 + 0 = l.val * 128 + q.val
    omega)

/-! ## The arrays the parameter windows stage: the arguments reshaped before the region -/

theorem V_v0 (c : Dev nD) : (V m c main_v0 : S3x128.Idx → EReal)
    = shapeCast S3x128 (m ((c : Thread nD τ).loc main_arg1) : S3x128x1.Idx → EReal) shapeCasts_S3x128x1_S3x128 := by
  dsimp only [V, hostOps0]; after_results; rfl

theorem V_v1 (c : Dev nD) : (V m c main_v1 : S3x128.Idx → EReal)
    = shapeCast S3x128 (m ((c : Thread nD τ).loc main_arg2) : S3x128x1.Idx → EReal) shapeCasts_S3x128x1_S3x128 := by
  dsimp only [V, hostOps0]; after_results; rfl

theorem V_v2 (c : Dev nD) : (V m c main_v2 : S3x128.Idx → EReal)
    = shapeCast S3x128 (m ((c : Thread nD τ).loc main_arg3) : S3x128x1.Idx → EReal) shapeCasts_S3x128x1_S3x128 := by
  dsimp only [V, hostOps0]; after_results; rfl

theorem V_v3 (c : Dev nD) : (V m c main_v3 : S3x128.Idx → EReal)
    = shapeCast S3x128 (m ((c : Thread nD τ).loc main_arg4) : S3x128x1.Idx → EReal) shapeCasts_S3x128x1_S3x128 := by
  dsimp only [V, hostOps0]; after_results; rfl

/-! ## Each window's block at a point, read at an index -/

/-- The data window's block at point `t` is rows `128 t …` of the data argument. -/
theorem iblk0_apply (c : Dev nD) (t : Fin cfg0.N) (p q : Fin 128) (k : Fin 8192) (hk : k.val = t.val * 128 + p.val) :
    (iblk m c 0 t : Vec Ideal S128x128 .f32) (ix2 p q) = (m ((c : Thread nD τ).loc main_arg0) : S8192x128.Idx → EReal) (ix2 k q) := by
  obtain ⟨h00, h01, -⟩ := idx_facts t
  unfold iblk
  rw [View.read_apply]
  show V m c main_arg0 _ = _
  refine (congrFun (V_main_arg0 m c) _).trans (congrArg _ (funext fun a => Fin.ext ?_))
  match a with
  | ⟨0, _⟩ => show win0_0.index t (0 : Fin 2) * 128 + 1 * p.val = k.val; rw [h00, hk]; omega
  | ⟨1, _⟩ => show win0_0.index t (1 : Fin 2) * 128 + 1 * q.val = q.val; rw [h01]; omega

theorem iblk1_apply (c : Dev nD) (t : Fin cfg0.N) (l : Fin 3) (q : Fin 128) :
    (iblk m c 1 t : Vec Ideal S3x128 .f32) (ix2 l q) = (m ((c : Thread nD τ).loc main_arg1) : S3x128x1.Idx → EReal) (ix3 l q (0 : Fin 1)) := by
  obtain ⟨-, -, -, -, h0, h1, -⟩ := idx_facts t
  unfold iblk
  rw [View.read_apply]
  show V m c main_v0 _ = _
  refine (congrFun (V_v0 m c) _).trans ((congrArg _ (funext fun a => Fin.ext ?_)).trans (cast_col _ l q))
  match a with
  | ⟨0, _⟩ => show win0_1.index t (0 : Fin 2) * 3 + 1 * l.val = l.val; rw [h0]; omega
  | ⟨1, _⟩ => show win0_1.index t (1 : Fin 2) * 128 + 1 * q.val = q.val; rw [h1]; omega

theorem iblk2_apply (c : Dev nD) (t : Fin cfg0.N) (l : Fin 3) (q : Fin 128) :
    (iblk m c 2 t : Vec Ideal S3x128 .f32) (ix2 l q) = (m ((c : Thread nD τ).loc main_arg2) : S3x128x1.Idx → EReal) (ix3 l q (0 : Fin 1)) := by
  obtain ⟨-, -, -, -, -, -, h0, h1, -⟩ := idx_facts t
  unfold iblk
  rw [View.read_apply]
  show V m c main_v1 _ = _
  refine (congrFun (V_v1 m c) _).trans ((congrArg _ (funext fun a => Fin.ext ?_)).trans (cast_col _ l q))
  match a with
  | ⟨0, _⟩ => show win0_2.index t (0 : Fin 2) * 3 + 1 * l.val = l.val; rw [h0]; omega
  | ⟨1, _⟩ => show win0_2.index t (1 : Fin 2) * 128 + 1 * q.val = q.val; rw [h1]; omega

theorem iblk3_apply (c : Dev nD) (t : Fin cfg0.N) (l : Fin 3) (q : Fin 128) :
    (iblk m c 3 t : Vec Ideal S3x128 .f32) (ix2 l q) = (m ((c : Thread nD τ).loc main_arg3) : S3x128x1.Idx → EReal) (ix3 l q (0 : Fin 1)) := by
  obtain ⟨-, -, -, -, -, -, -, -, h0, h1, -⟩ := idx_facts t
  unfold iblk
  rw [View.read_apply]
  show V m c main_v2 _ = _
  refine (congrFun (V_v2 m c) _).trans ((congrArg _ (funext fun a => Fin.ext ?_)).trans (cast_col _ l q))
  match a with
  | ⟨0, _⟩ => show win0_3.index t (0 : Fin 2) * 3 + 1 * l.val = l.val; rw [h0]; omega
  | ⟨1, _⟩ => show win0_3.index t (1 : Fin 2) * 128 + 1 * q.val = q.val; rw [h1]; omega

theorem iblk4_apply (c : Dev nD) (t : Fin cfg0.N) (l : Fin 3) (q : Fin 128) :
    (iblk m c 4 t : Vec Ideal S3x128 .f32) (ix2 l q) = (m ((c : Thread nD τ).loc main_arg4) : S3x128x1.Idx → EReal) (ix3 l q (0 : Fin 1)) := by
  obtain ⟨-, -, -, -, -, -, -, -, -, -, h0, h1⟩ := idx_facts t
  unfold iblk
  rw [View.read_apply]
  show V m c main_v3 _ = _
  refine (congrFun (V_v3 m c) _).trans ((congrArg _ (funext fun a => Fin.ext ?_)).trans (cast_col _ l q))
  match a with
  | ⟨0, _⟩ => show win0_4.index t (0 : Fin 2) * 3 + 1 * l.val = l.val; rw [h0]; omega
  | ⟨1, _⟩ => show win0_4.index t (1 : Fin 2) * 128 + 1 * q.val = q.val; rw [h1]; omega

/-! ## A block of the body's result is a block of `G` -/

/-- Over variables: if the data block is rows `k0 …` of `x` and the parameter blocks are the parameter arrays, the block the
    body leaves, at `(p, d)`, is `G` at row `k0 + p`. -/
theorem block_value (X0 : FVec Ideal S128x128 .f32) (X1 X2 X3 X4 : Vec Ideal S3x128 .f32)
    (x : S8192x128.Idx → EReal) (w1 w2 w3 w4 : S3x128x1.Idx → EReal) (k : Fin 8192) (p d : Fin 128)
    (h0 : ∀ q : Fin 128, X0 (ix2 p q) = x (ix2 k q))
    (h1 : ∀ (l : Fin 3) (q : Fin 128), X1 (ix2 l q) = w1 (ix3 l q (0 : Fin 1)))
    (h2 : ∀ (l : Fin 3) (q : Fin 128), X2 (ix2 l q) = w2 (ix3 l q (0 : Fin 1)))
    (h3 : ∀ (l : Fin 3) (q : Fin 128), X3 (ix2 l q) = w3 (ix3 l q (0 : Fin 1)))
    (h4 : ∀ (l : Fin 3) (q : Fin 128), X4 (ix2 l q) = w4 (ix3 l q (0 : Fin 1))) :
    blockOut X0 X1 X2 X3 X4 (ix2 p d) = G x w1 w2 w3 w4 (ix2 k d) := by
  rw [blockOut_apply, G_apply]
  unfold rowOut
  have e0 : brow X0 p = xrow x k := funext h0
  have e1 : ∀ l : Fin 3, (fun q => X1 (ix2 l q)) = pcol w1 l := fun l => funext (h1 l)
  have e2 : ∀ l : Fin 3, (fun q => X2 (ix2 l q)) = pcol w2 l := fun l => funext (h2 l)
  have e3 : ∀ l : Fin 3, (fun q => X3 (ix2 l q)) = pcol w3 l := fun l => funext (h3 l)
  have e4 : ∀ l : Fin 3, (fun q => X4 (ix2 l q)) = pcol w4 l := fun l => funext (h4 l)
  rw [e0, e1, e1, e1, e2, e2, e2, e3, e3, e3, e4, e4, e4]

/-- WHAT POINT `t` WRITES BACK is block `t` of `G` of the argument arrays. -/
theorem flushed_eq (c : Dev nD) (t : Fin cfg0.N) :
    (dats m 0 c).flushed 5 t = ((cfg0.win 5).blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4))) := by
  rw [Cert.KernelIdeal.Value.flushed5, out_eq]
  obtain ⟨-, -, h50, h51, -⟩ := idx_facts t
  have ht : t.val < 64 := lt_of_lt_of_eq t.isLt hN
  funext j
  obtain ⟨p, d, rfl⟩ : ∃ (p d : Fin 128), j = ix2 p d := ⟨j 0, j 1, eq_ix2 j⟩
  show blockOut (iblk m c 0 t) (iblk m c 1 t) (iblk m c 2 t) (iblk m c 3 t) (iblk m c 4 t) (ix2 p d)
    = G (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb (ix2 p d))
  have hk : t.val * 128 + p.val < 8192 := by have := p.isLt; omega
  have ej : ((cfg0.win 5).blk t).view.emb (ix2 p d) = ix2 (⟨t.val * 128 + p.val, hk⟩ : Fin 8192) d := funext fun a => Fin.ext (by
    match a with
    | ⟨0, _⟩ => show win0_5.index t (0 : Fin 2) * 128 + 1 * p.val = t.val * 128 + p.val; rw [h50]; omega
    | ⟨1, _⟩ => show win0_5.index t (1 : Fin 2) * 128 + 1 * d.val = d.val; rw [h51]; omega)
  rw [ej]
  exact block_value (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4)) ⟨t.val * 128 + p.val, hk⟩ p d
    (fun q => iblk0_apply m c t p q ⟨t.val * 128 + p.val, hk⟩ rfl)
    (fun l q => iblk1_apply m c t l q) (fun l q => iblk2_apply m c t l q)
    (fun l q => iblk3_apply m c t l q) (fun l q => iblk4_apply m c t l q)

/-- An index of the result array is in point `t`'s block iff each coordinate is in the block's range on its axis. -/
theorem mem_blk (t : Fin cfg0.N) (i : S8192x128.Idx) :
    i ∈ ((cfg0.win 5).blk t).view.set ↔ ∀ a : Fin 2, win0_5.index t a * S128x128.size a ≤ (i a).val
      ∧ (i a).val < win0_5.index t a * S128x128.size a + S128x128.size a := by
  show i ∈ ((View.whole main_v4).slice (win0_5.rect t)).set ↔ _
  rw [View.set_slice_whole, Rect.mem_set_unit]
  exact Iff.rfl

/-- Every index of the result array lies in some point's block: row `r` in block `r / 128`. -/
theorem cover (i : S8192x128.Idx) : ∃ t : Fin cfg0.N, (cfg0.win 5).flush t = true ∧ i ∈ ((cfg0.win 5).blk t).view.set := by
  have hi0 : (i 0).val < 8192 := (i 0).isLt
  have hi1 : (i 1).val < 128 := (i 1).isLt
  have hlt : (i 0).val / 128 < cfg0.N := by rw [hN]; omega
  refine ⟨⟨(i 0).val / 128, hlt⟩, flush0_5 _, ?_⟩
  obtain ⟨-, -, h50, h51, -⟩ := idx_facts ⟨(i 0).val / 128, hlt⟩
  rw [mem_blk]
  intro a
  match a with
  | ⟨0, _⟩ =>
    show win0_5.index ⟨(i 0).val / 128, hlt⟩ (0 : Fin 2) * 128 ≤ (i 0).val
      ∧ (i 0).val < win0_5.index ⟨(i 0).val / 128, hlt⟩ (0 : Fin 2) * 128 + 128
    rw [h50]; show (i 0).val / 128 * 128 ≤ (i 0).val ∧ (i 0).val < (i 0).val / 128 * 128 + 128; omega
  | ⟨1, _⟩ =>
    show win0_5.index ⟨(i 0).val / 128, hlt⟩ (1 : Fin 2) * 128 ≤ (i 1).val
      ∧ (i 1).val < win0_5.index ⟨(i 0).val / 128, hlt⟩ (1 : Fin 2) * 128 + 128
    rw [h51]; omega

/-- THE RESULT ARRAY after the run is `G` of the argument arrays. -/
theorem final (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed_eq m c t) cover

/-- The kernel's run, read: the result at `G` of the arguments, the arguments unchanged. -/
theorem run : θ_run defs (onTc (τ := τ) (main (F := Ideal))) ⟨m, fun _ => 0, ρ⟩ fun r => ∀ c : Dev nD,
      r.2.mem ((c : Thread nD τ).loc main_v4)
        = G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.ArrayValue

end
-- ==== Proof.RefRow.lean ====
/-
  The reference, row by row.

  The host program repeats one group of operations three times.  With every operand a column array
  [8192, 128, 1], a layer forms the table `s(r,d,e) = ∑ k : Fin 1, (x0·wk)(r,d,k) · (xl·wq)(r,e,k)` — a contraction over
  an axis of length one, so a single product —, takes `exp`, divides by the sums over `d` (a host sum: the initial
  value `0` plus the sum), multiplies by `(x0·wv)(r,d)`, contracts the last axis against `xl`, and adds the bias
  and `xl`.  `hostLayer` names that group once; at `(r, d, 0)` it is `RowLayers.layer` of row `r` at `d`.  A
  parameter enters as layer `l`'s slice of its [3, 128, 1] array, reshaped and repeated over the 8192 rows:
  `paramCol`, which at `(r, d, u)` reads the array at `(l, d, 0)`.
-/
import proofs.«173370_j18416819765988_1_alg».proof.Proof.Gen.ReferenceIdeal.Read
import proofs.«173370_j18416819765988_1_alg».proof.Proof.Spec
import Idealize.ShloMosaic.Lib.ValueLayout
import Idealize.ShloMosaic.PureOps.Ideal.Laws

noncomputable section

namespace Cert.ReferenceIdeal.RowValue

open Cert.ReferenceIdeal Cert.ReferenceIdeal.Gen Cert.ReferenceIdeal.Read Idealize.ShloMosaic Idealize.ShloMosaic.ValueIdx Cert.RowLayers

variable {F : FTy → Type} [FloatOps F]

/-! ## One layer as an expression over column arrays -/

/-- The table of products: a contraction over the columns' unit axis. -/
def outer (A Q : FVec F S8192x128x1 .f32) : FVec F S8192x128x128 .f32 :=
  Host.dotGeneral dot_S8192x128x1_S8192x128x1_S8192x128x128_2_2_1_1_0_0 none A Q

/-- A table contracted, along its last axis, against a column. -/
def contract (M : FVec F S8192x128x128 .f32) (X : FVec F S8192x128x1 .f32) : FVec F S8192x128x1 .f32 :=
  Host.dotGeneral dot_S8192x128x128_S8192x128x1_S8192x128x1_2_1_1_2_0_0 none M X

/-- A table's sums over its middle axis, repeated along that axis. -/
def colSums (E : FVec F S8192x128x128 .f32) : FVec F S8192x128x128 .f32 :=
  broadcastInDim S8192x128x128 ![0, 1, 2] bcast_S8192x1x128_S8192x128x128_0_1_2
    (broadcastInDim S8192x1x128 ![0, 2] bcast_S8192x128_S8192x1x128_0_2
      (Host.reduceAdd E (constant S_ .f32 0x00000000#32) reducesTo_S8192x128x128_S8192x128_d1 h_S_))

/-- A column repeated along a new last axis. -/
def alongLast (A : FVec F S8192x128x1 .f32) : FVec F S8192x128x128 .f32 :=
  broadcastInDim S8192x128x128 ![0, 1, 2] bcast_S8192x128x1_S8192x128x128_0_1_2 A

/-- One layer: `x0` the data column, `xl` the column entering the layer, and the layer's four parameter columns. -/
def hostLayer (x0 xl wq wk wv b : FVec F S8192x128x1 .f32) : FVec F S8192x128x1 .f32 :=
  addf (addf (contract (mulf (Host.divf (Host.exp (outer (mulf x0 wk) (mulf xl wq)))
      (colSums (Host.exp (outer (mulf x0 wk) (mulf xl wq))))) (alongLast (mulf x0 wv))) xl) b) xl

/-- Rows `off 0 …` of a [3, 128, 1] parameter array cut out, reshaped to a column and repeated over the 8192 rows. -/
def paramCol (off : Fin 3 → Nat) (w : FVec F S3x128x1 .f32) (hs : S3x128x1.Slices off S1x128x1) : FVec F S8192x128x1 .f32 :=
  broadcastInDim S8192x128x1 ![0, 1, 2] bcast_S1x128x1_S8192x128x1_0_1_2
    (broadcastInDim S1x128x1 ![1, 2] bcast_S128x1_S1x128x1_1_2
      (shapeCast S128x1 (extractStridedSlice S1x128x1 off w hs) shapeCasts_S1x128x1_S128x1))

/-! ## The pieces read at an index, at the ideal values -/

theorem outer_apply (A Q : FVec Ideal S8192x128x1 .f32) (r : Fin 8192) (d e : Fin 128) :
    outer A Q (ix3 r d e) = A (ix3 r d (0 : Fin 1)) * Q (ix3 r e (0 : Fin 1)) := by
  unfold outer
  simp only [Host.dotGeneral]
  rw [Ideal.dotGeneral_apply, ← Equiv.sum_comp (ValueIdx.contrEquiv1 dot_S8192x128x1_S8192x128x1_S8192x128x128_2_2_1_1_0_0 1 rfl rfl).symm,
    Fin.sum_univ_one]
  have hk := ValueIdx.contrEquiv1_symm_val dot_S8192x128x1_S8192x128x1_S8192x128x128_2_2_1_1_0_0 1 rfl rfl 0
  have el : dot_S8192x128x1_S8192x128x1_S8192x128x128_2_2_1_1_0_0.lhsIdx (ix3 r d e)
      ((ValueIdx.contrEquiv1 dot_S8192x128x1_S8192x128x1_S8192x128x128_2_2_1_1_0_0 1 rfl rfl).symm 0) = ix3 r d (0 : Fin 1) :=
    funext fun a => Fin.ext (by
      match a with
      | ⟨0, _⟩ => exact lhs_main_v16_0 _ _
      | ⟨1, _⟩ => exact lhs_main_v16_1 _ _
      | ⟨2, _⟩ => exact (lhs_main_v16_2 _ _).trans hk)
  have er : dot_S8192x128x1_S8192x128x1_S8192x128x128_2_2_1_1_0_0.rhsIdx (ix3 r d e)
      ((ValueIdx.contrEquiv1 dot_S8192x128x1_S8192x128x1_S8192x128x128_2_2_1_1_0_0 1 rfl rfl).symm 0) = ix3 r e (0 : Fin 1) :=
    funext fun a => Fin.ext (by
      match a with
      | ⟨0, _⟩ => exact rhs_main_v16_0 _ _
      | ⟨1, _⟩ => exact rhs_main_v16_1 _ _
      | ⟨2, _⟩ => exact (rhs_main_v16_2 _ _).trans hk)
  rw [el, er]

theorem contract_apply (M : FVec Ideal S8192x128x128 .f32) (X : FVec Ideal S8192x128x1 .f32) (r : Fin 8192) (d : Fin 128) (u : Fin 1) :
    contract M X (ix3 r d u) = ∑ e : Fin 128, M (ix3 r d e) * X (ix3 r e u) := by
  unfold contract
  simp only [Host.dotGeneral]
  rw [Ideal.dotGeneral_apply, ← Equiv.sum_comp (ValueIdx.contrEquiv1 dot_S8192x128x128_S8192x128x1_S8192x128x1_2_1_1_2_0_0 128 rfl rfl).symm]
  refine Finset.sum_congr rfl fun k _ => ?_
  have hk := ValueIdx.contrEquiv1_symm_val dot_S8192x128x128_S8192x128x1_S8192x128x1_2_1_1_2_0_0 128 rfl rfl k
  have el : dot_S8192x128x128_S8192x128x1_S8192x128x1_2_1_1_2_0_0.lhsIdx (ix3 r d u)
      ((ValueIdx.contrEquiv1 dot_S8192x128x128_S8192x128x1_S8192x128x1_2_1_1_2_0_0 128 rfl rfl).symm k) = ix3 r d k :=
    funext fun a => Fin.ext (by
      match a with
      | ⟨0, _⟩ => exact lhs_main_v24_0 _ _
      | ⟨1, _⟩ => exact lhs_main_v24_1 _ _
      | ⟨2, _⟩ => exact (lhs_main_v24_2 _ _).trans hk)
  have er : dot_S8192x128x128_S8192x128x1_S8192x128x1_2_1_1_2_0_0.rhsIdx (ix3 r d u)
      ((ValueIdx.contrEquiv1 dot_S8192x128x128_S8192x128x1_S8192x128x1_2_1_1_2_0_0 128 rfl rfl).symm k) = ix3 r k u :=
    funext fun a => Fin.ext (by
      match a with
      | ⟨0, _⟩ => exact rhs_main_v24_0 _ _
      | ⟨1, _⟩ => exact (rhs_main_v24_1 _ _).trans hk
      | ⟨2, _⟩ => exact rhs_main_v24_2 _ _)
  rw [el, er]

theorem colSums_apply (E : FVec Ideal S8192x128x128 .f32) (r : Fin 8192) (d e : Fin 128) :
    colSums E (ix3 r d e) = Ideal.ofBits .f32 0x00000000#32 + ∑ d' : Fin 128, E (ix3 r d' e) := by
  unfold colSums
  refine (broadcastInDim_apply _ bcast_S8192x1x128_S8192x128x128_0_1_2 _ (ix3 r d e) (ix3 r (0 : Fin 1) e) (fun a => match a with
    | ⟨0, _⟩ => by show r.val = if (8192 : Nat) = 1 then 0 else r.val; rw [if_neg (by decide)]
    | ⟨1, _⟩ => by show 0 = if (1 : Nat) = 1 then 0 else d.val; rw [if_pos rfl]
    | ⟨2, _⟩ => by show e.val = if (128 : Nat) = 1 then 0 else e.val; rw [if_neg (by decide)])).trans ?_
  refine (broadcastInDim_apply _ bcast_S8192x128_S8192x1x128_0_2 _ (ix3 r (0 : Fin 1) e) (ix2 r e) (fun a => match a with
    | ⟨0, _⟩ => by show r.val = if (8192 : Nat) = 1 then 0 else r.val; rw [if_neg (by decide)]
    | ⟨1, _⟩ => by show e.val = if (128 : Nat) = 1 then 0 else e.val; rw [if_neg (by decide)])).trans ?_
  simp only [Host.reduceAdd, Ideal.hostReduceAdd_def]
  rw [Ideal.hostReduceAdd_single reducesTo_S8192x128x128_S8192x128_d1 (by decide)]
  refine congrArg₂ (· + ·) rfl (Finset.sum_congr rfl fun k _ => ?_)
  exact congrArg E (funext fun a => Fin.ext (by match a with | ⟨0, _⟩ => rfl | ⟨1, _⟩ => rfl | ⟨2, _⟩ => rfl))

theorem alongLast_apply (A : FVec Ideal S8192x128x1 .f32) (r : Fin 8192) (d e : Fin 128) :
    alongLast A (ix3 r d e) = A (ix3 r d (0 : Fin 1)) := by
  unfold alongLast
  exact broadcastInDim_apply _ bcast_S8192x128x1_S8192x128x128_0_1_2 A (ix3 r d e) (ix3 r d (0 : Fin 1)) (fun a => match a with
    | ⟨0, _⟩ => by show r.val = if (8192 : Nat) = 1 then 0 else r.val; rw [if_neg (by decide)]
    | ⟨1, _⟩ => by show d.val = if (128 : Nat) = 1 then 0 else d.val; rw [if_neg (by decide)]
    | ⟨2, _⟩ => by show 0 = if (1 : Nat) = 1 then 0 else e.val; rw [if_pos rfl])

/-- A parameter column at `(r, d, u)` is the parameter array at `(o, d, 0)`, `o` the first row cut out. -/
theorem paramCol_apply (o : Nat) (ho : o < 3) (w : FVec Ideal S3x128x1 .f32) (hs : S3x128x1.Slices ![o, 0, 0] S1x128x1)
    (r : Fin 8192) (d : Fin 128) (u : Fin 1) :
    paramCol ![o, 0, 0] w hs (ix3 r d u) = w (ix3 (⟨o, ho⟩ : Fin 3) d (0 : Fin 1)) := by
  unfold paramCol
  refine (broadcastInDim_apply _ bcast_S1x128x1_S8192x128x1_0_1_2 _ (ix3 r d u) (ix3 (0 : Fin 1) d (0 : Fin 1)) (fun a => match a with
    | ⟨0, _⟩ => by show 0 = if (1 : Nat) = 1 then 0 else r.val; rw [if_pos rfl]
    | ⟨1, _⟩ => by show d.val = if (128 : Nat) = 1 then 0 else d.val; rw [if_neg (by decide)]
    | ⟨2, _⟩ => by show 0 = if (1 : Nat) = 1 then 0 else u.val; rw [if_pos rfl])).trans ?_
  refine (broadcastInDim_apply _ bcast_S128x1_S1x128x1_1_2 _ (ix3 (0 : Fin 1) d (0 : Fin 1)) (ix2 d (0 : Fin 1)) (fun a => match a with
    | ⟨0, _⟩ => by show d.val = if (128 : Nat) = 1 then 0 else d.val; rw [if_neg (by decide)]
    | ⟨1, _⟩ => by show 0 = if (1 : Nat) = 1 then 0 else 0; rw [if_pos rfl])).trans ?_
  refine (shapeCast_apply _ shapeCasts_S1x128x1_S128x1 (ix2 d (0 : Fin 1)) (ix3 (0 : Fin 1) d (0 : Fin 1)) (by
    rw [Shape.rowMajor_val_three, Shape.rowMajor_val_two]
    show (0 * 128 + d.val) * 1 + 0 = d.val * 1 + 0
    omega)).trans ?_
  exact extractStridedSlice_apply ![o, 0, 0] w hs (ix3 (0 : Fin 1) d (0 : Fin 1)) (ix3 (⟨o, ho⟩ : Fin 3) d (0 : Fin 1)) (fun a => match a with
    | ⟨0, _⟩ => by show o = o + 0; omega
    | ⟨1, _⟩ => by show d.val = 0 + d.val; omega
    | ⟨2, _⟩ => by show 0 = 0 + 0; omega)

/-- Row `r` of a column array. -/
def hrow (A : FVec Ideal S8192x128x1 .f32) (r : Fin 8192) : Fin 128 → EReal := fun e => A (ix3 r e (0 : Fin 1))

/-- A layer's row `r`, given what its parameter columns read: the row function `layer` of the operands' rows. -/
theorem hostLayer_row (x0 xl wq wk wv b : FVec Ideal S8192x128x1 .f32) (cq ck cv cb : Fin 128 → EReal)
    (hq : ∀ (r : Fin 8192) (e : Fin 128) (u : Fin 1), wq (ix3 r e u) = cq e)
    (hk : ∀ (r : Fin 8192) (e : Fin 128) (u : Fin 1), wk (ix3 r e u) = ck e)
    (hv : ∀ (r : Fin 8192) (e : Fin 128) (u : Fin 1), wv (ix3 r e u) = cv e)
    (hb : ∀ (r : Fin 8192) (e : Fin 128) (u : Fin 1), b (ix3 r e u) = cb e) (r : Fin 8192) :
    hrow (hostLayer x0 xl wq wk wv b) r = layer cq ck cv cb (hrow x0 r) (hrow xl r) := by
  funext d
  show contract (F := Ideal) _ xl (ix3 r d (0 : Fin 1)) + b (ix3 r d (0 : Fin 1)) + xl (ix3 r d (0 : Fin 1)) = _
  rw [contract_apply, hb]
  unfold layer hrow
  refine congrArg (fun s => s + cb d + xl (ix3 r d (0 : Fin 1))) (Finset.sum_congr rfl fun e _ => ?_)
  show Ideal.div (Ideal.exp (outer (F := Ideal) _ _ (ix3 r d e))) (colSums (F := Ideal) _ (ix3 r d e)) * alongLast (F := Ideal) _ (ix3 r d e) * xl (ix3 r e (0 : Fin 1)) = _
  rw [outer_apply, colSums_apply, alongLast_apply, Ideal.ofBits_zero_f32, zero_add]
  have hs : ∀ d' : Fin 128, Host.exp (F := Ideal) (outer (mulf x0 wk) (mulf xl wq)) (ix3 r d' e)
      = Ideal.exp (x0 (ix3 r d' (0 : Fin 1)) * ck d' * (xl (ix3 r e (0 : Fin 1)) * cq e)) := fun d' => by
    show Ideal.exp (outer (F := Ideal) _ _ (ix3 r d' e)) = _
    rw [outer_apply]
    show Ideal.exp (x0 (ix3 r d' (0 : Fin 1)) * wk (ix3 r d' (0 : Fin 1)) * (xl (ix3 r e (0 : Fin 1)) * wq (ix3 r e (0 : Fin 1)))) = _
    rw [hk, hq]
  simp only [hs]
  show Ideal.div (Ideal.exp (x0 (ix3 r d (0 : Fin 1)) * wk (ix3 r d (0 : Fin 1)) * (xl (ix3 r e (0 : Fin 1)) * wq (ix3 r e (0 : Fin 1)))))
      _ * (x0 (ix3 r d (0 : Fin 1)) * wv (ix3 r d (0 : Fin 1))) * xl (ix3 r e (0 : Fin 1)) = _
  rw [hk, hq, hv]

/-! ## The reference's stages are these -/

theorem v0_row (x0 : FVec Ideal S8192x128 .f32) (r : Fin 8192) : hrow (val_main_v0 (F := Ideal) x0) r = xrow x0 r := by
  funext e
  show val_main_v0 (F := Ideal) x0 (ix3 r e (0 : Fin 1)) = x0 (ix2 r e)
  rw [val_main_v0_apply]
  exact congrArg x0 (funext fun a => Fin.ext (by match a with | ⟨0, _⟩ => rfl | ⟨1, _⟩ => rfl))

theorem stage30 (x0 : FVec F S8192x128 .f32) (x1 x2 x3 x4 : FVec F S3x128x1 .f32) :
    val_main_v30 (F := F) x0 x1 x2 x3 x4 = hostLayer (val_main_v0 (F := F) x0) (val_main_v0 (F := F) x0)
      (paramCol ![0, 0, 0] x1 slices_S3x128x1_S1x128x1_0_0_0) (paramCol ![0, 0, 0] x2 slices_S3x128x1_S1x128x1_0_0_0)
      (paramCol ![0, 0, 0] x3 slices_S3x128x1_S1x128x1_0_0_0) (paramCol ![0, 0, 0] x4 slices_S3x128x1_S1x128x1_0_0_0) := rfl

theorem stage60 (x0 : FVec F S8192x128 .f32) (x1 x2 x3 x4 : FVec F S3x128x1 .f32) :
    val_main_v60 (F := F) x0 x1 x2 x3 x4 = hostLayer (val_main_v0 (F := F) x0) (val_main_v30 (F := F) x0 x1 x2 x3 x4)
      (paramCol ![1, 0, 0] x1 slices_S3x128x1_S1x128x1_1_0_0) (paramCol ![1, 0, 0] x2 slices_S3x128x1_S1x128x1_1_0_0)
      (paramCol ![1, 0, 0] x3 slices_S3x128x1_S1x128x1_1_0_0) (paramCol ![1, 0, 0] x4 slices_S3x128x1_S1x128x1_1_0_0) := rfl

theorem stage90 (x0 : FVec F S8192x128 .f32) (x1 x2 x3 x4 : FVec F S3x128x1 .f32) :
    val_main_v90 (F := F) x0 x1 x2 x3 x4 = hostLayer (val_main_v0 (F := F) x0) (val_main_v60 (F := F) x0 x1 x2 x3 x4)
      (paramCol ![2, 0, 0] x1 slices_S3x128x1_S1x128x1_2_0_0) (paramCol ![2, 0, 0] x2 slices_S3x128x1_S1x128x1_2_0_0)
      (paramCol ![2, 0, 0] x3 slices_S3x128x1_S1x128x1_2_0_0) (paramCol ![2, 0, 0] x4 slices_S3x128x1_S1x128x1_2_0_0) := rfl

/-- THE REFERENCE'S RESULT is `G` of its arguments. -/
theorem result_eq (x0 : FVec Ideal S8192x128 .f32) (x1 x2 x3 x4 : FVec Ideal S3x128x1 .f32) :
    val_main_v91 (F := Ideal) x0 x1 x2 x3 x4 = G x0 x1 x2 x3 x4 := by
  funext i
  obtain ⟨r, d, rfl⟩ : ∃ (r : Fin 8192) (d : Fin 128), i = ix2 r d := ⟨i 0, i 1, eq_ix2 i⟩
  rw [val_main_v91_apply, G_apply]
  have ei : idx_main_v91 (ix2 r d) = ix3 r d (0 : Fin 1) := funext fun a => Fin.ext (by
    have hd : d.val < 128 := d.isLt
    match a with
    | ⟨0, _⟩ => show (r.val * 128 + d.val) / 128 = r.val; omega
    | ⟨1, _⟩ => show (r.val * 128 + d.val) / 1 % 128 = d.val; omega
    | ⟨2, _⟩ => rfl)
  rw [ei]
  have h3 := hostLayer_row (val_main_v0 (F := Ideal) x0) (val_main_v60 (F := Ideal) x0 x1 x2 x3 x4)
    (paramCol ![2, 0, 0] x1 slices_S3x128x1_S1x128x1_2_0_0) (paramCol ![2, 0, 0] x2 slices_S3x128x1_S1x128x1_2_0_0)
    (paramCol ![2, 0, 0] x3 slices_S3x128x1_S1x128x1_2_0_0) (paramCol ![2, 0, 0] x4 slices_S3x128x1_S1x128x1_2_0_0)
    (pcol x1 2) (pcol x2 2) (pcol x3 2) (pcol x4 2)
    (fun r e u => paramCol_apply 2 (by decide) x1 _ r e u) (fun r e u => paramCol_apply 2 (by decide) x2 _ r e u)
    (fun r e u => paramCol_apply 2 (by decide) x3 _ r e u) (fun r e u => paramCol_apply 2 (by decide) x4 _ r e u) r
  have h2 := hostLayer_row (val_main_v0 (F := Ideal) x0) (val_main_v30 (F := Ideal) x0 x1 x2 x3 x4)
    (paramCol ![1, 0, 0] x1 slices_S3x128x1_S1x128x1_1_0_0) (paramCol ![1, 0, 0] x2 slices_S3x128x1_S1x128x1_1_0_0)
    (paramCol ![1, 0, 0] x3 slices_S3x128x1_S1x128x1_1_0_0) (paramCol ![1, 0, 0] x4 slices_S3x128x1_S1x128x1_1_0_0)
    (pcol x1 1) (pcol x2 1) (pcol x3 1) (pcol x4 1)
    (fun r e u => paramCol_apply 1 (by decide) x1 _ r e u) (fun r e u => paramCol_apply 1 (by decide) x2 _ r e u)
    (fun r e u => paramCol_apply 1 (by decide) x3 _ r e u) (fun r e u => paramCol_apply 1 (by decide) x4 _ r e u) r
  have h1 := hostLayer_row (val_main_v0 (F := Ideal) x0) (val_main_v0 (F := Ideal) x0)
    (paramCol ![0, 0, 0] x1 slices_S3x128x1_S1x128x1_0_0_0) (paramCol ![0, 0, 0] x2 slices_S3x128x1_S1x128x1_0_0_0)
    (paramCol ![0, 0, 0] x3 slices_S3x128x1_S1x128x1_0_0_0) (paramCol ![0, 0, 0] x4 slices_S3x128x1_S1x128x1_0_0_0)
    (pcol x1 0) (pcol x2 0) (pcol x3 0) (pcol x4 0)
    (fun r e u => paramCol_apply 0 (by decide) x1 _ r e u) (fun r e u => paramCol_apply 0 (by decide) x2 _ r e u)
    (fun r e u => paramCol_apply 0 (by decide) x3 _ r e u) (fun r e u => paramCol_apply 0 (by decide) x4 _ r e u) r
  rw [← stage90] at h3
  rw [← stage60] at h2
  rw [← stage30] at h1
  rw [h2, h1, v0_row] at h3
  exact congrFun h3 d

end Cert.ReferenceIdeal.RowValue

end
-- ==== Proof.lean ====
/-
  Three layers of a row-wise softmax-weighted mixing, as a Pallas kernel over blocks of 128 rows and as plain jnp over
  column arrays, are the same function of their arguments on the extended reals.

  For a row `x0` of the [8192, 128] data matrix and a layer's parameter columns `wq wk wv b`, the layer sends the
  row `xl` entering it to

      d ↦ (∑ e, exp (s d e) / (∑ d', exp (s d' e)) · (x0 d · wv d) · xl e) + b d + xl d,   s d e = (x0 d · wk d) · (xl e · wq e)

  (Proof/Spec.lean: `RowLayers.layer`, and `RowLayers.G`, the three layers on every row).  The kernel computes it on
  a [128, 128, 128] cube per block of rows, by broadcasts and sums along the cube's middle and last axes
  (Proof/KernelRow.lean), and its 64 blocks tile the rows (Proof/KernelArray.lean); the reference computes it on
  [8192, 128, 128] tables by a contraction over an axis of length one, a host sum with initial value `0`, and a
  contraction against the entering column (Proof/RefRow.lean).  Both apply the same exact operations to the same
  operands in the same order, so the two results agree at every extended real: the precondition is not used.
  Nothing is rewritten between the kernel and its idealization, so that conjunct is `True`.
-/
import proofs.«173370_j18416819765988_1_alg».proof.Defs
import proofs.«173370_j18416819765988_1_alg».proof.Proof.Gen.Kernel
import proofs.«173370_j18416819765988_1_alg».proof.Proof.Gen.Kernel.Skeleton
import proofs.«173370_j18416819765988_1_alg».proof.Proof.Gen.Kernel.Launch
import proofs.«173370_j18416819765988_1_alg».proof.Proof.Gen.Kernel.Points
import proofs.«173370_j18416819765988_1_alg».proof.Proof.Gen.Kernel.Frame
import proofs.«173370_j18416819765988_1_alg».proof.Proof.Gen.KernelIdeal
import proofs.«173370_j18416819765988_1_alg».proof.Proof.Gen.KernelIdeal.Skeleton
import proofs.«173370_j18416819765988_1_alg».proof.Proof.Gen.KernelIdeal.Launch
import proofs.«173370_j18416819765988_1_alg».proof.Proof.Gen.KernelIdeal.Points
import proofs.«173370_j18416819765988_1_alg».proof.Proof.Gen.KernelIdeal.Frame
import proofs.«173370_j18416819765988_1_alg».proof.Proof.Gen.ReferenceIdeal
import proofs.«173370_j18416819765988_1_alg».proof.Proof.Gen.Pre_finite_inputs
import proofs.«173370_j18416819765988_1_alg».proof.Proof.Gen.KernelIdeal.Value
import proofs.«173370_j18416819765988_1_alg».proof.Proof.Gen.ReferenceIdeal.Run
import proofs.«173370_j18416819765988_1_alg».proof.Proof.Gen.ReferenceIdeal.Read
import proofs.«173370_j18416819765988_1_alg».proof.Proof.KernelArray
import proofs.«173370_j18416819765988_1_alg».proof.Proof.RefRow
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference changes none of its arguments: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with their result array at `RowLayers.G` of the argument arrays, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v91_eq, Cert.ReferenceIdeal.RowValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
